-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S64x64 : Shape := ⟨2, ![64, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S100000x64 .f32) (main_arg1 : IVec S2x1250000 32) (main_arg2 : FVec F S64x64 .f32) (main_arg3 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  main_v13
-- ==== Kernel.lean ====
abbrev S100000x64 : Shape := ⟨2, ![100000, 64]⟩
abbrev S2x1250000 : Shape := ⟨2, ![2, 1250000]⟩
abbrev S64x64 : Shape := ⟨2, ![64, 64]⟩
abbrev S64x128 : Shape := ⟨2, ![64, 128]⟩
abbrev S100000x128 : Shape := ⟨2, ![100000, 128]⟩
abbrev S4000x64 : Shape := ⟨2, ![4000, 64]⟩
abbrev S4000x128 : Shape := ⟨2, ![4000, 128]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S2000x64 : Shape := ⟨2, ![2000, 64]⟩

abbrev nBuf : Space → Nat
  | .hbm => 26
  | .vmem => 11
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64x64, .f32⟩
  | .hbm, ⟨4, _⟩ => ⟨S64x128, .f32⟩
  | .hbm, ⟨5, _⟩ => ⟨S100000x128, .f32⟩
  | .hbm, ⟨6, _⟩ => ⟨S100000x64, .f32⟩
  | .hbm, ⟨7, _⟩ => ⟨S100000x64, .f32⟩
  | .hbm, ⟨8, _⟩ => ⟨S1x1250000, .i32⟩
  | .hbm, ⟨9, _⟩ => ⟨S1250000, .i32⟩
  | .hbm, ⟨10, _⟩ => ⟨S_, .i32⟩
  | .hbm, ⟨11, _⟩ => ⟨S1250000, .i32⟩
  | .hbm, ⟨12, _⟩ => ⟨S1250000, .i1⟩
  | .hbm, ⟨13, _⟩ => ⟨S_, .i32⟩
  | .hbm, ⟨14, _⟩ => ⟨S1250000, .i32⟩
  | .hbm, ⟨15, _⟩ => ⟨S1250000, .i32⟩
  | .hbm, ⟨16, _⟩ => ⟨S1250000, .i32⟩
  | .hbm, ⟨17, _⟩ => ⟨S1250000x1, .i32⟩
  | .hbm, ⟨18, _⟩ => ⟨S1250000x64, .f32⟩
  | .hbm, ⟨19, _⟩ => ⟨S1x1250000, .i32⟩
  | .hbm, ⟨20, _⟩ => ⟨S1250000, .i32⟩
  | .hbm, ⟨21, _⟩ => ⟨S_, .f32⟩
  | .hbm, ⟨22, _⟩ => ⟨S100000x64, .f32⟩
  | .hbm, ⟨23, _⟩ => ⟨S1250000x1, .i32⟩
  | .hbm, ⟨24, _⟩ => ⟨S100000x64, .f32⟩
  | .hbm, ⟨25, _⟩ => ⟨S100000x64, .f32⟩
  | .local _ .vmem, ⟨0, _⟩ => ⟨S4000x64, .f32⟩
  | .local _ .vmem, ⟨1, _⟩ => ⟨S4000x64, .f32⟩
  | .local _ .vmem, ⟨2, _⟩ => ⟨S64x128, .f32⟩
  | .local _ .vmem, ⟨3, _⟩ => ⟨S4000x128, .f32⟩
  | .local _ .vmem, ⟨4, _⟩ => ⟨S4000x128, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  concatenates_S64x64_S64x64_S64x128_d1 : Shape.Concatenates [S64x64, S64x64] S64x128 1
  inb_S4000x64_S4000x64_0_0 : ∀ a, (![0, 0] : Fin 2 → Nat) a + S4000x64.size a ≤ S4000x64.size a
  h_S4000x64 : 0 < S4000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S4000x128_S4000x128_0_0 : ∀ a, (![0, 0] : Fin 2 → Nat) a + S4000x128.size a ≤ S4000x128.size a
  h_S4000x128 : 0 < S4000x128.numel
  slices_S100000x128_S100000x64_0_0 : S100000x128.Slices ![0, 0] S100000x64
  slices_S100000x128_S100000x64_0_64 : S100000x128.Slices ![0, 64] S100000x64
  slices_S2x1250000_S1x1250000_0_0 : S2x1250000.Slices ![0, 0] S1x1250000
  shapeCasts_S1x1250000_S1250000 : S1x1250000.ShapeCasts S1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  slices_S2x1250000_S1x1250000_1_0 : S2x1250000.Slices ![1, 0] S1x1250000
  bcast_S_S100000x64 : S_.BroadcastsInDim S100000x64 (![] : Fin 0 → Fin S100000x64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  dot_S4000x64_S64x128_S4000x128_1_0_0_1_n_n_wf : DotDims.WF S4000x64 S64x128 S4000x128 [1] [0] [0] [1] [] []
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)

variable [Facts₀]

def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S64x64 : Shape := ⟨2, ![64, 64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩

abbrev nBuf : Space → Nat
  | .hbm => 27
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64x64, .f32⟩
  | .hbm, ⟨4, _⟩ => ⟨S100000x64, .f32⟩
  | .hbm, ⟨5, _⟩ => ⟨S100000x64, .f32⟩
  | .hbm, ⟨6, _⟩ => ⟨S1x1250000, .i32⟩
  | .hbm, ⟨7, _⟩ => ⟨S1250000, .i32⟩
  | .hbm, ⟨8, _⟩ => ⟨S_, .i32⟩
  | .hbm, ⟨9, _⟩ => ⟨S1250000, .i32⟩
  | .hbm, ⟨10, _⟩ => ⟨S1250000, .i1⟩
  | .hbm, ⟨11, _⟩ => ⟨S_, .i32⟩
  | .hbm, ⟨12, _⟩ => ⟨S1250000, .i32⟩
  | .hbm, ⟨13, _⟩ => ⟨S1250000, .i32⟩
  | .hbm, ⟨14, _⟩ => ⟨S1250000, .i32⟩
  | .hbm, ⟨15, _⟩ => ⟨S1250000x1, .i32⟩
  | .hbm, ⟨16, _⟩ => ⟨S1250000x64, .f32⟩
  | .hbm, ⟨17, _⟩ => ⟨S1x1250000, .i32⟩
  | .hbm, ⟨18, _⟩ => ⟨S1250000, .i32⟩
  | .hbm, ⟨19, _⟩ => ⟨S_, .f32⟩
  | .hbm, ⟨20, _⟩ => ⟨S100000x64, .f32⟩
  | .hbm, ⟨21, _⟩ => ⟨S1250000x1, .i32⟩
  | .hbm, ⟨22, _⟩ => ⟨S100000x64, .f32⟩
  | .hbm, ⟨23, _⟩ => ⟨S100000x64, .f32⟩
  | .hbm, ⟨24, _⟩ => ⟨S_, .f32⟩
  | .hbm, ⟨25, _⟩ => ⟨S100000x64, .f32⟩
  | .hbm, ⟨26, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_cst : Ref sig .tc := ⟨.hbm, 24, rfl⟩
abbrev main_call0_v0 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  slices_S2x1250000_S1x1250000_1_0 : S2x1250000.Slices ![1, 0] S1x1250000
  bcast_S_S100000x64 : S_.BroadcastsInDim S100000x64 (![] : Fin 0 → Fin S100000x64.rank)
  dot_S100000x64_S64x64_S100000x64_1_0_0_1_n_n_wf : DotDims.WF S100000x64 S64x64 S100000x64 [1] [0] [0] [1] [] []
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf

class Facts : Prop extends Facts₀ where

variable [Facts]
-- ==== Proof.Spec.lean ====
/-
  The graph layer both programs compute, as ONE function of the four argument arrays over the extended reals.

  For node features `x : [100000, 64]`, an edge list `e : [2, 1250000]` (row 0 the source node of each edge, row 1 its
  destination) and two weight matrices `w₁ w₂ : [64, 64]`:

      layer x e w₁ w₂ = max (x·w₁ + A(x·w₂, e), 0)

  where `x·w` is the matrix product, entry (r, c) the sum over the shared axis k of x[r,k]·w[k,c] (`lin`), and
  `A(y, e)` (`aggregate`) sums into row d of a zero array every row y[s] such that (s, d) is an edge: a row gather at the
  source indices (a negative index first moved up by the row count, so that it counts from the end) followed by a scatter-add
  at the destination indices. The gather and the scatter-add are kept as the two host operations they are; nothing in
  this certificate opens them, since both programs apply them to equal arrays.
-/
import proofs.«146820_j10797547782336_2_alg».proof.KernelIdeal
import proofs.«146820_j10797547782336_2_alg».proof.Proof.Gen.KernelIdeal
import Idealize.ShloMosaic.PureOps.Ideal
import Idealize.ShloMosaic.Lib.ValueIdx

noncomputable section

namespace Cert.Layer

open Idealize.ShloMosaic Cert.KernelIdeal Cert.KernelIdeal.Gen

/-- Node-feature arrays, weight matrices and edge lists over the extended reals. -/
abbrev Rows : Type := (⟨S100000x64, .f32⟩ : BufTy).Contents (Elt Ideal)
abbrev Weights : Type := (⟨S64x64, .f32⟩ : BufTy).Contents (Elt Ideal)
abbrev Edges : Type := (⟨S2x1250000, .i32⟩ : BufTy).Contents (Elt Ideal)

/-- Entry (r, k) of the left factor and entry (k, c) of the right factor, for the output entry `i = (r, c)`. -/
abbrev leftAt (i : S100000x64.Idx) (k : Fin 64) : S100000x64.Idx := fun a => match a with
  | ⟨0, _⟩ => ⟨(i 0).val, (i 0).isLt⟩
  | ⟨1, _⟩ => ⟨k.val, k.isLt⟩
abbrev rightAt (i : S100000x64.Idx) (k : Fin 64) : S64x64.Idx := fun a => match a with
  | ⟨0, _⟩ => ⟨k.val, k.isLt⟩
  | ⟨1, _⟩ => ⟨(i 1).val, (i 1).isLt⟩

/-- The matrix product `x·w`: entry (r, c) is the sum over k of x[r,k]·w[k,c]. -/
def lin (x : Rows) (w : Weights) : Rows :=
  fun i => ∑ k : Fin 64, x (leftAt i k) * w (rightAt i k)

/-- The source node of every edge (row 0 of the edge list), a negative index moved up by the number of rows, as a
    column of start indices for the row gather. -/
def sources (e : Edges) : (⟨S1250000x1, .i32⟩ : BufTy).Contents (Elt Ideal) :=
  broadcastInDim S1250000x1 ![0] bcast_S1250000_S1250000x1_0
    (select
      (cmpi .slt (shapeCast _ (extractStridedSlice S1x1250000 ![0, 0] e slices_S2x1250000_S1x1250000_0_0) shapeCasts_S1x1250000_S1250000)
        (broadcastInDim S1250000 ![] bcast_S_S1250000 (constantI S_ 32 0#32)))
      (addi (shapeCast _ (extractStridedSlice S1x1250000 ![0, 0] e slices_S2x1250000_S1x1250000_0_0) shapeCasts_S1x1250000_S1250000)
        (broadcastInDim S1250000 ![] bcast_S_S1250000 (constantI S_ 32 100000#32)))
      (shapeCast _ (extractStridedSlice S1x1250000 ![0, 0] e slices_S2x1250000_S1x1250000_0_0) shapeCasts_S1x1250000_S1250000))

/-- The destination node of every edge (row 1 of the edge list), as a column of scatter indices. -/
def destinations (e : Edges) : (⟨S1250000x1, .i32⟩ : BufTy).Contents (Elt Ideal) :=
  broadcastInDim S1250000x1 ![0] bcast_S1250000_S1250000x1_0
    (shapeCast _ (extractStridedSlice S1x1250000 ![1, 0] e slices_S2x1250000_S1x1250000_1_0) shapeCasts_S1x1250000_S1250000)

/-- Neighbour aggregation: row d of the result is the sum of the rows y[s] over the edges (s, d). -/
def aggregate (y : Rows) (e : Edges) : Rows :=
  Host.scatterAdd scatter_S100000x64_S1250000x1_S1250000x64_1_0_0_1
    (broadcastInDim S100000x64 ![] bcast_S_S100000x64 (constant (F := Ideal) S_ .f32 0x00000000#32))
    (destinations e)
    (Host.gather gather_S100000x64_S1250000x1_S1250000x64_1_0_n_n_0_1_164 y (sources e))

/-- Sum of a self term and a neighbour term, clamped below at zero. -/
def addRelu (a b : Rows) : Rows :=
  fun i => FloatOps.maximumf (FloatOps.addf (a i) (b i)) (FloatOps.ofBits (F := Ideal) .f32 0x00000000#32)

/-- Both kernels load and store their blocks whole: every access starts at offset zero on both axes. -/
theorem zero_offsets : (![0, 0] : Fin 2 → Nat) = fun _ => 0 := funext fun a => by fin_cases a <;> rfl

/-- The layer: `max (x·w₁ + A(x·w₂, e), 0)`. -/
def layer (x : Rows) (e : Edges) (w₁ w₂ : Weights) : Rows :=
  addRelu (lin x w₁) (aggregate (lin x w₂) e)

end Cert.Layer

end
-- ==== Proof.RefSpec.lean ====
/-
  The reference program computes `layer`.

  Its result is max((x·w₁) + A(x·w₂, e), 0) operation by operation: two host matrix products, each entry the sum over
  the shared axis of the products of the factors' entries; the row gather at the edge sources and the scatter-add at
  the edge destinations, the same two operations `aggregate` is made of, applied to `x·w₂`; a pointwise sum and a
  pointwise maximum with zero. So the two sides agree entry by entry once each product is read as its sum.
-/
import proofs.«146820_j10797547782336_2_alg».proof.Proof.Spec
import proofs.«146820_j10797547782336_2_alg».proof.Proof.Gen.ReferenceIdeal.Read

noncomputable section

namespace Cert.Layer

open Idealize.ShloMosaic Cert.ReferenceIdeal.Read

/-- Each host matrix product is `lin` of its factors. -/
theorem ref_lin₁ (x : Rows) (w : Weights) : val_main_v0 (F := Ideal) x w = lin x w :=
  funext fun i => val_main_v0_apply x w i
theorem ref_lin₂ (x : Rows) (w : Weights) : val_main_v1 (F := Ideal) x w = lin x w :=
  funext fun i => val_main_v1_apply x w i

/-- The neighbour term of the reference is `aggregate` of its second product. -/
theorem ref_aggregate (x : Rows) (e : Edges) (w : Weights) :
    val_main_v15 (F := Ideal) x e w = aggregate (lin x w) e := by
  unfold val_main_v15 val_main_v10
  rw [ref_lin₂]
  rfl

/-- The reference's result is the layer. -/
theorem ref_eq (x : Rows) (e : Edges) (w₁ w₂ : Weights) :
    val_main_v17 (F := Ideal) x e w₁ w₂ = layer x e w₁ w₂ := by
  funext i
  rw [val_main_v17_apply, val_main_v16_apply, val_main_call0_v0_apply, val_main_call0_cst_apply, ref_lin₁, ref_aggregate]
  rfl

end Cert.Layer

end
-- ==== Proof.KernelRun.lean ====
/-
  The idealized kernel program's run, with its result array named.

  @main is four segments: the concatenation of the two weight matrices; the product kernel; the slices, the row gather
  and the scatter-add; the add-and-clamp kernel. Every weakly fair execution runs through them in order and terminates
  without a fault, and at the end every buffer that outlives the kernels holds what the last segment boundary says it
  holds. Read at the four arguments that is the frame claim (they end as launched); read at the result buffer it says
  the result is the second kernel's output array as its write-backs leave it, which is what the value proof starts
  from.
-/
import proofs.«146820_j10797547782336_2_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last segment
    boundary's contents and the four arguments end as launched. -/
theorem run : θ_run defs (onTc (τ := τ) (main (F := F))) ⟨m, fun _ => 0, ρ⟩ (fun r => ∀ c : Dev nD,
      r.2.mem ((c.tc : Thread nD τ).loc main_v18) = W4 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v18 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.Result

end
-- ==== Proof.Dense.lean ====
/-
  The first kernel's output array: the product of the node features with the two weight matrices side by side.

  The kernel walks 25 blocks of 4000 rows. At block t it loads rows 4000t … 4000t + 3999 of the features (all 64
  columns) and the whole 64 × 128 weight array, multiplies them on the matrix unit into a zero accumulator — the
  rounding of both factors to a narrower format is the identity over the extended reals — and stores the 4000 × 128
  product as block t of the output. So entry (r, c) of the finished array is the sum over k of x[r,k]·w[k,c], whatever
  block r falls in (`dense`), and the 25 blocks tile the 100000 rows.
-/
import proofs.«146820_j10797547782336_2_alg».proof.Proof.Spec
import proofs.«146820_j10797547782336_2_alg».proof.Proof.Gen.KernelIdeal.Frame
import Idealize.ShloMosaic.Lib.Pipeline.Value
import Idealize.ShloMosaic.Lib.ValueIdx
import Idealize.ShloMosaic.PureOps.Ideal.Laws

noncomputable section

namespace Cert.Layer

open Idealize.ShloMosaic Idealize.ShloMosaic.TcCoe Idealize.SL.Sem
open Idealize.ShloMosaic.Pipeline (Dat)
open Cert.KernelIdeal Cert.KernelIdeal.Gen

/-- The 100000 × 128 product array and the 64 × 128 array of both weight matrices side by side. -/
abbrev Wide : Type := (⟨S100000x128, .f32⟩ : BufTy).Contents (Elt Ideal)
abbrev WeightPair : Type := (⟨S64x128, .f32⟩ : BufTy).Contents (Elt Ideal)

/-- Entry (r, k) of the features and entry (k, c) of the weight pair, for the output entry `i = (r, c)`. -/
abbrev wideLeft (i : S100000x128.Idx) (k : Fin 64) : S100000x64.Idx := fun a => match a with
  | ⟨0, _⟩ => ⟨(i 0).val, (i 0).isLt⟩
  | ⟨1, _⟩ => ⟨k.val, k.isLt⟩
abbrev wideRight (i : S100000x128.Idx) (k : Fin 64) : S64x128.Idx := fun a => match a with
  | ⟨0, _⟩ => ⟨k.val, k.isLt⟩
  | ⟨1, _⟩ => ⟨(i 1).val, (i 1).isLt⟩

/-- The product with the weight pair: entry (r, c) is the sum over k of x[r,k]·w[k,c], c ranging over 128 columns. -/
def dense (x : Rows) (w : WeightPair) : Wide :=
  fun i => ∑ k : Fin 64, x (wideLeft i k) * w (wideRight i k)

/-! ## One block's product, entry by entry -/

/-- The same two entries inside one block: of the 4000 × 64 feature block and of the weight pair. -/
abbrev blockLeft (j : S4000x128.Idx) (k : Fin 64) : S4000x64.Idx := fun a => match a with
  | ⟨0, _⟩ => ⟨(j 0).val, (j 0).isLt⟩
  | ⟨1, _⟩ => ⟨k.val, k.isLt⟩
abbrev blockRight (j : S4000x128.Idx) (k : Fin 64) : S64x128.Idx := fun a => match a with
  | ⟨0, _⟩ => ⟨k.val, k.isLt⟩
  | ⟨1, _⟩ => ⟨(j 1).val, (j 1).isLt⟩

abbrev mmDims : DotDims S4000x64 S64x128 S4000x128 := dot_S4000x64_S64x128_S4000x128_1_0_0_1_n_n

/-- Which entries of the factors the product's entry `j` multiplies at contraction index `q`: row `j 0` of the left
    factor at column `q`, row `q` of the right factor at column `j 1`. -/
theorem lhs_row (j : S4000x128.Idx) (q : mmDims.contr.Idx) : (mmDims.lhsIdx j q 0).val = (j 0).val := by
  unfold DotDims.lhsIdx
  rw [dif_neg (show ¬(0 : Fin S4000x64.rank) ∈ mmDims.lhsBatch by decide), dif_pos (show (0 : Fin S4000x64.rank) ∈ mmDims.lhsNonContracting by decide)]
  rfl
theorem lhs_col (j : S4000x128.Idx) (q : mmDims.contr.Idx) : (mmDims.lhsIdx j q 1).val = (q ⟨0, by decide⟩).val :=
  mmDims.lhsIdx_val_of_single rfl j q
theorem rhs_row (j : S4000x128.Idx) (q : mmDims.contr.Idx) : (mmDims.rhsIdx j q 0).val = (q ⟨0, by decide⟩).val :=
  mmDims.rhsIdx_val_of_single rfl j q
theorem rhs_col (j : S4000x128.Idx) (q : mmDims.contr.Idx) : (mmDims.rhsIdx j q 1).val = (j 1).val := by
  unfold DotDims.rhsIdx
  rw [dif_neg (show ¬(1 : Fin S64x128.rank) ∈ mmDims.rhsBatch by decide), dif_pos (show (1 : Fin S64x128.rank) ∈ mmDims.rhsNonContracting by decide)]
  rfl

/-- What the body stores, at an entry: the sum over the shared axis of the loaded blocks' products. -/
theorem pay_apply (x0 : Vec Ideal S4000x64 .f32) (x1 : Vec Ideal S64x128 .f32) (j : S4000x128.Idx) :
    k0_pay1 (F := Ideal) x0 x1 j = ∑ k : Fin 64, x0 (blockLeft j k) * x1 (blockRight j k) := by
  unfold k0_pay1
  simp only [matmul]
  rw [Ideal.matmul_constant_zero_apply, ← Equiv.sum_comp (ValueIdx.contrEquiv1 mmDims 64 rfl rfl).symm]
  refine Finset.sum_congr rfl fun k _ => ?_
  have hk := ValueIdx.contrEquiv1_symm_val mmDims 64 rfl rfl k
  have el : mmDims.lhsIdx j ((ValueIdx.contrEquiv1 mmDims 64 rfl rfl).symm k) = blockLeft j k := funext fun a => Fin.ext (by
    match a with
    | ⟨0, _⟩ => exact lhs_row _ _
    | ⟨1, _⟩ => exact (lhs_col _ _).trans hk)
  have er : mmDims.rhsIdx j ((ValueIdx.contrEquiv1 mmDims 64 rfl rfl).symm k) = blockRight j k := funext fun a => Fin.ext (by
    match a with
    | ⟨0, _⟩ => exact (rhs_row _ _).trans hk
    | ⟨1, _⟩ => exact rhs_col _ _)
  rw [el, er]
  simp only [truncf, Ideal.truncf_def, shapeCast_self]

/-- A block's product is the whole product read where the block sits, once each loaded entry is the array's. -/
theorem block_eq (A : Rows) (B : WeightPair) (x0 : Vec Ideal S4000x64 .f32) (x1 : Vec Ideal S64x128 .f32)
    (j : S4000x128.Idx) (i : S100000x128.Idx)
    (h0 : ∀ k : Fin 64, x0 (blockLeft j k) = A (wideLeft i k)) (h1 : ∀ k : Fin 64, x1 (blockRight j k) = B (wideRight i k)) :
    k0_pay1 (F := Ideal) x0 x1 j = dense A B i := by
  rw [pay_apply]
  unfold dense
  exact Finset.sum_congr rfl fun k _ => by rw [h0 k, h1 k]

/-! ## From the blocks to the array -/

variable (V : (c : Dev nD) → (b : Ref sig .tc) → Buf (Elt Ideal) ((c : Thread nD τ).loc b))

/-- Where the blocks sit, decided over the 25 grid points: the feature block and the output block of point t are both
    row block t; the weight pair is fetched whole; the output spans all 128 columns. -/
theorem grid_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- What point t writes back is block t of the product of the arrays the region finds. -/
theorem dense_flushed (c : Dev nD) (t : Fin cfg0.N) :
    (dat0 V c).flushed 2 t = ((cfg0.win 2).blk t).view.read (Elt Ideal) (dense (V c main_arg0) (V c main_v0)) := by
  show (cfg0.win 2).cut (grid0.coords t) ((dat0 V c).after 2 t) = _
  rw [after0_2]
  unfold out0_2
  rw [View.canon_unit_zero zero_offsets]
  simp only [View.ld_unit_zero (S := S4000x64) zero_offsets, View.ld_unit_zero (S := S64x128) zero_offsets]
  obtain ⟨e0, e1, e2, e3, e4, e5⟩ := grid_facts t
  funext j
  refine block_eq _ _ _ _ j (((cfg0.win 2).blk t).view.emb j) (fun k => ?_) (fun k => ?_)
  · show V c main_arg0 (((cfg0.win 0).blk t).view.emb (blockLeft j k)) = _
    refine congrArg _ (funext fun a => Fin.ext ?_)
    match a with
    | ⟨0, _⟩ => show win0_0.index t (0 : Fin 2) * 4000 + 1 * (j 0).val = win0_2.index t (0 : Fin 2) * 4000 + 1 * (j 0).val; omega
    | ⟨1, _⟩ => show win0_0.index t (1 : Fin 2) * 64 + 1 * k.val = k.val; omega
  · show V c main_v0 (((cfg0.win 1).blk t).view.emb (blockRight j k)) = _
    refine congrArg _ (funext fun a => Fin.ext ?_)
    match a with
    | ⟨0, _⟩ => show win0_1.index t (0 : Fin 2) * 64 + 1 * k.val = k.val; omega
    | ⟨1, _⟩ => show win0_1.index t (1 : Fin 2) * 128 + 1 * (j 1).val = win0_2.index t (1 : Fin 2) * 128 + 1 * (j 1).val; omega

/-- An entry of the output array lies in point t's block iff its row is among the block's 4000 rows (and its column among the 128). -/
theorem mem_dense_blk (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v1).slice (win0_2.rect t)).set ↔ _
  rw [View.set_slice_whole, Rect.mem_set_unit]
  exact Iff.rfl

/-- Every entry is in some written block: row r is in block r / 4000. -/
theorem dense_cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 25 := N_0
  obtain ⟨t, ht⟩ : ∃ t : Fin cfg0.N, t.val = (i 0).val / 4000 := ⟨⟨(i 0).val / 4000, by rw [hN]; omega⟩, rfl⟩
  obtain ⟨e0, e1, e2, e3, e4, e5⟩ := grid_facts t
  refine ⟨t, flush0_2 t, ?_⟩
  rw [mem_dense_blk]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 128 ≤ (i 1).val ∧ (i 1).val < win0_2.index t (1 : Fin 2) * 128 + 128; omega

/-- The first kernel leaves its output array at the product of the features and the weight pair it was given. -/
theorem dense_final (c : Dev nD) : (dat0 V c).arrAt 2 cfg0.N = dense (V c main_arg0) (V c main_v0) :=
  (dat0 V c).arrAt_eq_of_cover 2 (dense (V c main_arg0) (V c main_v0)) (fun t _ => dense_flushed V c t) dense_cover

end Cert.Layer

end
-- ==== Proof.Halves.lean ====
/-
  The two halves of the product with both weight matrices side by side are the two products.

  Placing w₁ and w₂ side by side along the columns gives a 64 × 128 array whose column c is column c of w₁ for c < 64
  and column c − 64 of w₂ otherwise. Entry (r, c) of the product with it is the sum over k of x[r,k] times that entry, so
  columns 0 … 63 of the product are x·w₁ and columns 64 … 127 are x·w₂: no algebra, only which entry is read.
-/
import proofs.«146820_j10797547782336_2_alg».proof.Proof.Dense
import Idealize.ShloMosaic.Lib.Pipeline.Value

noncomputable section

namespace Cert.Layer

open Idealize.ShloMosaic Cert.KernelIdeal Cert.KernelIdeal.Gen

/-- The two weight matrices side by side along the columns. -/
def sideBySide (w₁ w₂ : Weights) : WeightPair :=
  concatenate S64x128 1 [⟨S64x64, w₁⟩, ⟨S64x64, w₂⟩] concatenates_S64x64_S64x64_S64x128_d1

/-- Entry (r, c) of a 64-column array, as entry (r, c) and as entry (r, 64 + c) of the 128-column one. -/
abbrev inLeftHalf (i : S100000x64.Idx) : S100000x128.Idx := fun a => match a with
  | ⟨0, _⟩ => ⟨(i 0).val, (i 0).isLt⟩
  | ⟨1, _⟩ => ⟨(i 1).val, by have h : (i 1).val < 64 := (i 1).isLt; show (i 1).val < 128; omega⟩
abbrev inRightHalf (i : S100000x64.Idx) : S100000x128.Idx := fun a => match a with
  | ⟨0, _⟩ => ⟨(i 0).val, (i 0).isLt⟩
  | ⟨1, _⟩ => ⟨64 + (i 1).val, by have h : (i 1).val < 64 := (i 1).isLt; show 64 + (i 1).val < 128; omega⟩

/-- Columns 0 … 63 of the product with the pair are the product with the first matrix. -/
theorem left_half (x : Rows) (w₁ w₂ : Weights) :
    extractStridedSlice S100000x64 ![0, 0] (dense x (sideBySide w₁ w₂)) slices_S100000x128_S100000x64_0_0 = lin x w₁ := by
  funext i
  refine (extractStridedSlice_apply ![0, 0] _ slices_S100000x128_S100000x64_0_0 i (inLeftHalf i) (fun a => match a with
    | ⟨0, _⟩ => by show (i 0).val = 0 + (i 0).val; omega
    | ⟨1, _⟩ => by show (i 1).val = 0 + (i 1).val; omega)).trans ?_
  unfold dense lin
  refine Finset.sum_congr rfl fun k _ => ?_
  have hx : wideLeft (inLeftHalf i) k = leftAt i k := funext fun a => Fin.ext (by
    match a with
    | ⟨0, _⟩ => rfl
    | ⟨1, _⟩ => rfl)
  have hw : sideBySide w₁ w₂ (wideRight (inLeftHalf i) k) = w₁ (rightAt i k) := by
    unfold sideBySide
    exact concatenate_pair_apply_left (1 : Fin 2) w₁ w₂ concatenates_S64x64_S64x64_S64x128_d1 (wideRight (inLeftHalf i) k) rfl (rightAt i k)
      (fun b => match b with
        | ⟨0, _⟩ => rfl
        | ⟨1, _⟩ => rfl)
  rw [hx, hw]

/-- Columns 64 … 127 of the product with the pair are the product with the second matrix. -/
theorem right_half (x : Rows) (w₁ w₂ : Weights) :
    extractStridedSlice S100000x64 ![0, 64] (dense x (sideBySide w₁ w₂)) slices_S100000x128_S100000x64_0_64 = lin x w₂ := by
  funext i
  refine (extractStridedSlice_apply ![0, 64] _ slices_S100000x128_S100000x64_0_64 i (inRightHalf i) (fun a => match a with
    | ⟨0, _⟩ => by show (i 0).val = 0 + (i 0).val; omega
    | ⟨1, _⟩ => by show 64 + (i 1).val = 64 + (i 1).val; omega)).trans ?_
  unfold dense lin
  refine Finset.sum_congr rfl fun k _ => ?_
  have hx : wideLeft (inRightHalf i) k = leftAt i k := funext fun a => Fin.ext (by
    match a with
    | ⟨0, _⟩ => rfl
    | ⟨1, _⟩ => rfl)
  have hw : sideBySide w₁ w₂ (wideRight (inRightHalf i) k) = w₂ (rightAt i k) := by
    unfold sideBySide
    refine concatenate_pair_apply_right (1 : Fin 2) w₁ w₂ concatenates_S64x64_S64x64_S64x128_d1 (wideRight (inRightHalf i) k) rfl rfl (rightAt i k)
      (fun b hb => ?_) ?_
    · match b with
      | ⟨0, _⟩ => rfl
      | ⟨1, _⟩ => exact absurd rfl hb
    · show (i 1).val + 64 = 64 + (i 1).val
      omega
  rw [hx, hw]

end Cert.Layer

end
-- ==== Proof.AddRelu.lean ====
/-
  The second kernel's output array: the self term plus the neighbour term, clamped below at zero.

  The kernel walks 50 blocks of 2000 rows. At block t it loads rows 2000t … 2000t + 1999 of both operands, adds them
  entry by entry, takes the maximum with zero and stores the result as block t of the output. Each output entry
  depends on the two operand entries at the same position only, so the finished array is `addRelu` of the two operand
  arrays, and the 50 blocks tile the 100000 rows.
-/
import proofs.«146820_j10797547782336_2_alg».proof.Proof.Spec
import proofs.«146820_j10797547782336_2_alg».proof.Proof.Gen.KernelIdeal.Frame
import Idealize.ShloMosaic.Lib.Pipeline.Value

noncomputable section

namespace Cert.Layer

open Idealize.ShloMosaic Idealize.ShloMosaic.TcCoe Idealize.SL.Sem
open Idealize.ShloMosaic.Pipeline (Dat)
open Cert.KernelIdeal Cert.KernelIdeal.Gen

/-- What the body stores, at an entry: the two loaded entries added, then the maximum with zero. -/
theorem addRelu_pay_apply (x0 x1 : Vec Ideal S2000x64 .f32) (j : S2000x64.Idx) :
    k1_pay1 (F := Ideal) x0 x1 j
      = FloatOps.maximumf (FloatOps.addf (x0 j) (x1 j)) (FloatOps.ofBits (F := Ideal) .f32 0x00000000#32) := by
  unfold k1_pay1
  simp only [shapeCast_self]
  rfl

/-- A block's result is `addRelu` read where the block sits, once each loaded entry is the array's. -/
theorem addRelu_block_eq (A B : Rows) (x0 x1 : Vec Ideal S2000x64 .f32) (j : S2000x64.Idx) (i : S100000x64.Idx)
    (h0 : x0 j = A i) (h1 : x1 j = B i) : k1_pay1 (F := Ideal) x0 x1 j = addRelu A B i := by
  rw [addRelu_pay_apply, h0, h1]
  rfl

variable (V : (c : Dev nD) → (b : Ref sig .tc) → Buf (Elt Ideal) ((c : Thread nD τ).loc b))

/-- Where the blocks sit, decided over the 50 grid points: both operand blocks and the output block of point t are
    row block t, all 64 columns. -/
theorem addRelu_grid_facts : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = win1_2.index t (1 : Fin 2)
    ∧ win1_2.index t (1 : Fin 2) = 0
    ∧ win1_2.index t (0 : Fin 2) = t.val :=
  (by decide +kernel : ∀ t : Fin grid1.N, _)

/-- What point t writes back is block t of `addRelu` of the two operand arrays the region finds. -/
theorem addRelu_flushed (c : Dev nD) (t : Fin cfg1.N) :
    (dat1 V c).flushed 2 t = ((cfg1.win 2).blk t).view.read (Elt Ideal) (addRelu (V c main_v2) (V c main_v17)) := by
  show (cfg1.win 2).cut (grid1.coords t) ((dat1 V c).after 2 t) = _
  rw [after1_2]
  unfold out1_2
  rw [View.canon_unit_zero zero_offsets]
  simp only [View.ld_unit_zero (S := S2000x64) zero_offsets]
  obtain ⟨e0, e1, e2, e3, e4, e5⟩ := addRelu_grid_facts t
  funext j
  refine addRelu_block_eq _ _ _ _ j (((cfg1.win 2).blk t).view.emb j) ?_ ?_
  · show V c main_v2 (((cfg1.win 0).blk t).view.emb j) = _
    refine congrArg _ (funext fun a => Fin.ext ?_)
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 64 + 1 * (j 1).val = win1_2.index t (1 : Fin 2) * 64 + 1 * (j 1).val; omega
  · show V c main_v17 (((cfg1.win 1).blk t).view.emb j) = _
    refine congrArg _ (funext fun a => Fin.ext ?_)
    match a with
    | ⟨0, _⟩ => show win1_1.index t (0 : Fin 2) * 2000 + 1 * (j 0).val = win1_2.index t (0 : Fin 2) * 2000 + 1 * (j 0).val; omega
    | ⟨1, _⟩ => show win1_1.index t (1 : Fin 2) * 64 + 1 * (j 1).val = win1_2.index t (1 : Fin 2) * 64 + 1 * (j 1).val; omega

/-- An entry of the output array lies in point t's block iff its row is among the block's 2000 rows (and its column among the 64). -/
theorem mem_addRelu_blk (t : Fin cfg1.N) (i : S100000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v18).slice (win1_2.rect t)).set ↔ _
  rw [View.set_slice_whole, Rect.mem_set_unit]
  exact Iff.rfl

/-- Every entry is in some written block: row r is in block r / 2000. -/
theorem addRelu_cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 50 := N_1
  obtain ⟨t, ht⟩ : ∃ t : Fin cfg1.N, t.val = (i 0).val / 2000 := ⟨⟨(i 0).val / 2000, by rw [hN]; omega⟩, rfl⟩
  obtain ⟨e0, e1, e2, e3, e4, e5⟩ := addRelu_grid_facts t
  refine ⟨t, flush1_2 t, ?_⟩
  rw [mem_addRelu_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 64 ≤ (i 1).val ∧ (i 1).val < win1_2.index t (1 : Fin 2) * 64 + 64; omega

/-- The second kernel leaves its output array at `addRelu` of the two operand arrays it was given. -/
theorem addRelu_final (c : Dev nD) : (dat1 V c).arrAt 2 cfg1.N = addRelu (V c main_v2) (V c main_v17) :=
  (dat1 V c).arrAt_eq_of_cover 2 (addRelu (V c main_v2) (V c main_v17)) (fun t _ => addRelu_flushed V c t) addRelu_cover

end Cert.Layer

end
-- ==== Proof.KernelValue.lean ====
/-
  The idealized kernel program's result is the layer.

  Reading the program's four segments backwards from the result buffer:
  * the add-and-clamp kernel leaves `addRelu` of its two operand arrays (its blocks tile the array);
  * its first operand is columns 0 … 63 of the product kernel's output; its second is `aggregate` of columns
    64 … 127 of that output and of the edge list, which no segment writes;
  * the product kernel leaves the product of the features, which no segment writes, with the array it was given;
  * that array is the two weight matrices side by side.
  Columns 0 … 63 of the product with the pair are x·w₁ and columns 64 … 127 are x·w₂, and what is left is the
  definition of `layer`.
-/
import proofs.«146820_j10797547782336_2_alg».proof.Proof.Halves
import proofs.«146820_j10797547782336_2_alg».proof.Proof.AddRelu
import Idealize.ShloMosaic.Lib.StableHlo.Run

noncomputable section

namespace Cert.Layer

open Idealize.ShloMosaic Idealize.ShloMosaic.TcCoe Idealize.SL.Sem Idealize.ShloMosaic.StableHlo
open Cert.KernelIdeal Cert.KernelIdeal.Gen

/-! ## The host operations, read from any contents `W` they start from -/

/-- Before the first kernel: the weight pair is the two matrices side by side; the features are not written. -/
theorem pair_read (W : Valuation τ sig (Elt Ideal)) :
    StableHlo.after (hostOps0 (F := Ideal)) W (Proc.devRef .tc main_v0)
      = sideBySide (W (Proc.devRef .tc main_arg2)) (W (Proc.devRef .tc main_arg3)) := by
  after_results <;> rfl
theorem features_kept (W : Valuation τ sig (Elt Ideal)) :
    StableHlo.after (hostOps0 (F := Ideal)) W (Proc.devRef .tc main_arg0) = W (Proc.devRef .tc main_arg0) := by
  after_results <;> rfl
theorem edges_kept (W : Valuation τ sig (Elt Ideal)) :
    StableHlo.after (hostOps0 (F := Ideal)) W (Proc.devRef .tc main_arg1) = W (Proc.devRef .tc main_arg1) := by
  after_results <;> rfl

/-- Between the kernels: the self term is the left half of the product array, the neighbour term `aggregate` of its
    right half and of the edge list. -/
theorem self_read (W : Valuation τ sig (Elt Ideal)) :
    StableHlo.after (hostOps1 (F := Ideal)) W (Proc.devRef .tc main_v2)
      = extractStridedSlice S100000x64 ![0, 0] (W (Proc.devRef .tc main_v1)) slices_S100000x128_S100000x64_0_0 := by
  after_results <;> rfl
theorem neighbour_read (W : Valuation τ sig (Elt Ideal)) :
    StableHlo.after (hostOps1 (F := Ideal)) W (Proc.devRef .tc main_v17)
      = aggregate (extractStridedSlice S100000x64 ![0, 64] (W (Proc.devRef .tc main_v1)) slices_S100000x128_S100000x64_0_64)
          (W (Proc.devRef .tc main_arg1)) := by
  after_results <;> rfl

/-! ## The result -/

variable (m : (ℓ : Loc nD τ sig) → Buf (Elt Ideal) ℓ) (ρ : Dev nD → PrngReg)

/-- The result buffer's contents at the last segment boundary are the layer of the four arguments as launched. -/
theorem result_eq (c : Dev nD) :
    W4 m ρ c (Proc.devRef .tc main_v18)
      = layer (m ((c.tc : Thread nD τ).loc main_arg0)) (m ((c.tc : Thread nD τ).loc main_arg1))
          (m ((c.tc : Thread nD τ).loc main_arg2)) (m ((c.tc : Thread nD τ).loc main_arg3)) := by
  have h4 : W4 m ρ c (Proc.devRef .tc main_v18) = addRelu (V3 m ρ c main_v2) (V3 m ρ c main_v17) :=
    (W4_arr m ρ c 2).trans (addRelu_final (V3 m ρ) c)
  have hself : V3 m ρ c main_v2
      = extractStridedSlice S100000x64 ![0, 0] (W2 m ρ c (Proc.devRef .tc main_v1)) slices_S100000x128_S100000x64_0_0 :=
    self_read (W2 m ρ c)
  have hnbr : V3 m ρ c main_v17
      = aggregate (extractStridedSlice S100000x64 ![0, 64] (W2 m ρ c (Proc.devRef .tc main_v1)) slices_S100000x128_S100000x64_0_64)
          (W2 m ρ c (Proc.devRef .tc main_arg1)) :=
    neighbour_read (W2 m ρ c)
  have h2 : W2 m ρ c (Proc.devRef .tc main_v1) = dense (V1 m ρ c main_arg0) (V1 m ρ c main_v0) :=
    (W2_arr m ρ c 2).trans (dense_final (V1 m ρ) c)
  have he : W2 m ρ c (Proc.devRef .tc main_arg1) = m ((c.tc : Thread nD τ).loc main_arg1) :=
    (W2_of_ne m ρ c main_arg1 (by decide)).trans (edges_kept (W0 m ρ c))
  have hx : V1 m ρ c main_arg0 = m ((c.tc : Thread nD τ).loc main_arg0) := features_kept (W0 m ρ c)
  have hw : V1 m ρ c main_v0 = sideBySide (m ((c.tc : Thread nD τ).loc main_arg2)) (m ((c.tc : Thread nD τ).loc main_arg3)) :=
    pair_read (W0 m ρ c)
  rw [h4, hself, hnbr, h2, he, hx, hw, left_half, right_half]
  rfl

end Cert.Layer

end
-- ==== Proof.lean ====
/-
  The certificate of one graph layer, `max (x·w₁ + A(x·w₂, e), 0)`, computed two ways.

  The kernel program places the two weight matrices side by side, forms both products in one pass of a blocked
  matrix-product kernel, takes the left half of the result as the self term, gathers and scatter-adds the right half
  along the edges into the neighbour term, and adds and clamps the two in a second blocked kernel. The reference forms
  the two products separately on the host, applies the same gather and scatter-add to the second, adds and clamps.

  Over the extended reals both are the one function `Cert.Layer.layer` of the four arguments:
  * the reference by reading each host product as the sum over the shared axis (RefSpec);
  * the kernel program by reading its result buffer back through its four segments (KernelRun, KernelValue): each
    kernel's blocks tile its output array with one index-by-index function of its inputs (Dense, AddRelu), and a
    column of the product with the pair is a column of the product with one of the two matrices (Halves).
  No law of arithmetic joins the two sides beyond the definitions of the product as a sum: the sums have the same
  terms in the same order, and the gather and the scatter-add are applied to equal arrays and never opened. So the
  precondition is not used by the value claim.

  The three frame claims are the generated ones (the reference's is its run with the result dropped), and the
  idealization rewrote nothing, so `preserves` holds trivially.
-/
import proofs.«146820_j10797547782336_2_alg».proof.Defs
import proofs.«146820_j10797547782336_2_alg».proof.Proof.Gen.Kernel
import proofs.«146820_j10797547782336_2_alg».proof.Proof.Gen.Kernel.Skeleton
import proofs.«146820_j10797547782336_2_alg».proof.Proof.Gen.Kernel.Launch
import proofs.«146820_j10797547782336_2_alg».proof.Proof.Gen.Kernel.Points
import proofs.«146820_j10797547782336_2_alg».proof.Proof.Gen.Kernel.Frame
import proofs.«146820_j10797547782336_2_alg».proof.Proof.Gen.KernelIdeal
import proofs.«146820_j10797547782336_2_alg».proof.Proof.Gen.KernelIdeal.Skeleton
import proofs.«146820_j10797547782336_2_alg».proof.Proof.Gen.KernelIdeal.Launch
import proofs.«146820_j10797547782336_2_alg».proof.Proof.Gen.KernelIdeal.Points
import proofs.«146820_j10797547782336_2_alg».proof.Proof.Gen.KernelIdeal.Frame
import proofs.«146820_j10797547782336_2_alg».proof.Proof.Gen.ReferenceIdeal
import proofs.«146820_j10797547782336_2_alg».proof.Proof.Gen.ReferenceIdeal.Run
import proofs.«146820_j10797547782336_2_alg».proof.Proof.Gen.ReferenceIdeal.Read
import proofs.«146820_j10797547782336_2_alg».proof.Proof.Gen.Pre_finite_inputs
import proofs.«146820_j10797547782336_2_alg».proof.Proof.RefSpec
import proofs.«146820_j10797547782336_2_alg».proof.Proof.KernelRun
import proofs.«146820_j10797547782336_2_alg».proof.Proof.KernelValue
import Idealize.ShloMosaic.Adequacy
import Idealize.ShloMosaic.Init

noncomputable section

namespace Cert.Proof

open Idealize.ShloMosaic Idealize.SL.Sem

/-- Each kernel program runs to the end without a fault and leaves its arguments as launched. -/
theorem frame_kernel : Cert.frame_Kernel := fun m ρ _ => Cert.Kernel.Gen.frame m ρ
theorem frame_kernelIdeal : Cert.frame_KernelIdeal := fun m ρ _ => Cert.KernelIdeal.Gen.frame m ρ
/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the four arguments both programs end with the layer of those arguments in their
    result buffers. -/
theorem algebraic : Cert.algebraic_KernelIdeal_ReferenceIdeal := by
  intro m ρ m' ρ' _ hagree
  refine ⟨fun c => Cert.Layer.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.Layer.result_eq m ρ c), (h c).2⟩)
      (Cert.KernelIdeal.Result.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v17_eq, Cert.Layer.ref_eq,
      (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
